-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16384 : Shape := ⟨2, ![128, 16384]⟩
abbrev S16384x16384 : Shape := ⟨2, ![16384, 16384]⟩
abbrev S16384x64 : Shape := ⟨2, ![16384, 64]⟩
abbrev S64x128 : Shape := ⟨2, ![64, 128]⟩
abbrev S_ : Shape := ⟨0, ![]⟩

class Facts : Prop where
  bcast_S_S128x16384 : S_.BroadcastsInDim S128x16384 (![] : Fin 0 → Fin S128x16384.rank)
  reducesTo_S128x16384_S_d0_1 : S128x16384.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384x64 : S_.BroadcastsInDim S16384x64 (![] : Fin 0 → Fin S16384x64.rank)
  reducesTo_S16384x64_S_d0_1 : S16384x64.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S128x16384 .f32) (main_arg1 : FVec F S16384x16384 .f32) (main_arg2 : FVec F S16384x64 .f32) (main_arg3 : FVec F S64x128 .f32) : IVec S_ 1 :=
  let main_v0 : FVec F S128x16384 .f32 := Host.absf main_arg0
  let main_cst : FVec F S_ .f32 := constant S_ .f32 0x7F800000#32
  let main_v1 : FVec F S128x16384 .f32 := broadcastInDim S128x16384 ![] bcast_S_S128x16384 main_cst
  let main_v2 : IVec S128x16384 1 := cmpf .olt main_v0 main_v1
  let main_c : IVec S_ 1 := constantI S_ 1 1#1
  let main_v3 : IVec S_ 1 := (fun x v => Host.reduce IntOp.andi x v reducesTo_S128x16384_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S128x16384 : Shape := ⟨2, ![128, 16384]⟩
abbrev S16384x16384 : Shape := ⟨2, ![16384, 16384]⟩
abbrev S16384x64 : Shape := ⟨2, ![16384, 64]⟩
abbrev S64x128 : Shape := ⟨2, ![64, 128]⟩
abbrev S2x128x128 : Shape := ⟨3, ![2, 128, 128]⟩
abbrev S128x64 : Shape := ⟨2, ![128, 64]⟩
abbrev S1x128x128 : Shape := ⟨3, ![1, 128, 128]⟩
abbrev S128x128 : Shape := ⟨2, ![128, 128]⟩

abbrev nBuf : Space → Nat
  | .hbm => 11
  | .vmem => 9
  | .smem => 0
  | _ => 0

abbrev bufTy : (tb : Table) → Fin (tcTables nBuf tb) → BufTy
  | .hbm, ⟨0, _⟩ => ⟨S128x16384, .f32⟩
  | .hbm, ⟨1, _⟩ => ⟨S16384x16384, .f32⟩
  | .hbm, ⟨2, _⟩ => ⟨S16384x64, .f32⟩
  | .hbm, ⟨3, _⟩ => ⟨S64x128, .f32⟩
  | .hbm, ⟨4, _⟩ => ⟨S128x16384, .bf16⟩
  | .hbm, ⟨5, _⟩ => ⟨S2x128x128, .f32⟩
  | .hbm, ⟨6, _⟩ => ⟨S1x128x128, .f32⟩
  | .hbm, ⟨7, _⟩ => ⟨S128x128, .f32⟩
  | .hbm, ⟨8, _⟩ => ⟨S1x128x128, .f32⟩
  | .hbm, ⟨9, _⟩ => ⟨S128x128, .f32⟩
  | .hbm, ⟨10, _⟩ => ⟨S128x128, .f32⟩
  | .local _ .vmem, ⟨0, _⟩ => ⟨S128x16384, .bf16⟩
  | .local _ .vmem, ⟨1, _⟩ => ⟨S128x16384, .f32⟩
  | .local _ .vmem, ⟨2, _⟩ => ⟨S128x16384, .f32⟩
  | .local _ .vmem, ⟨3, _⟩ => ⟨S128x64, .f32⟩
  | .local _ .vmem, ⟨4, _⟩ => ⟨S128x64, .f32⟩
  | .local _ .vmem, ⟨5, _⟩ => ⟨S64x128, .f32⟩
  | .local _ .vmem, ⟨6, _⟩ => ⟨S1x128x128, .f32⟩
  | .local _ .vmem, ⟨7, _⟩ => ⟨S1x128x128, .f32⟩
  | .local _ .vmem, ⟨8, _⟩ => ⟨S128x128, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v19 : BitVec 1 := Scalar.cmpi .eq arg1 c63_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  inb_S128x64_S128x64_0_0 : ∀ a, (![0, 0] : Fin 2 → Nat) a + S128x64.size a ≤ S128x64.size a
  h_S128x64 : 0 < S128x64.numel
  inb_S64x128_S64x128_0_0 : ∀ a, (![0, 0] : Fin 2 → Nat) a + S64x128.size a ≤ S64x128.size a
  h_S64x128 : 0 < S64x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  slices_S2x128x128_S1x128x128_0_0_0 : S2x128x128.Slices ![0, 0, 0] S1x128x128
  slices_S2x128x128_S1x128x128_1_0_0 : S2x128x128.Slices ![1, 0, 0] S1x128x128
  dot_S128x16384_S128x16384_S128x128_1_1_0_0_n_n_wf : DotDims.WF S128x16384 S128x16384 S128x128 [1] [1] [0] [0] [] []
  dot_S128x64_S64x128_S128x128_1_0_0_1_n_n_wf : DotDims.WF S128x64 S64x128 S128x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S128x16384.size a
  hwx0_0 : ∀ i : grid0.Coords, EltTy.bits .bf16 = 32 ∨ (Rect.block (s := S128x16384) S128x16384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S16384x16384.size a
  hwx0_1 : ∀ i : grid0.Coords, EltTy.bits .f32 = 32 ∨ (Rect.block (s := S16384x16384) S128x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S16384x64.size a
  hwx0_2 : ∀ i : grid0.Coords, EltTy.bits .f32 = 32 ∨ (Rect.block (s := S16384x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S2x128x128.size a
  hwx0_4 : ∀ i : grid0.Coords, EltTy.bits .f32 = 32 ∨ (Rect.block (s := S2x128x128) S1x128x128.size (cc0_transform_4 i) (hinb0_4 i)).WholeWords (EltTy.packing .f32)

variable [Facts₀]

def dot_S128x16384_S128x16384_S128x128_1_1_0_0_n_n : DotDims S128x16384 S128x16384 S128x128 where
  lhsContracting := [1]
  rhsContracting := [1]
  lhsNonContracting := [0]
  rhsNonContracting := [0]
  lhsBatch := []
  rhsBatch := []
  wf := dot_S128x16384_S128x16384_S128x128_1_1_0_0_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v0) S128x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x16384 : Shape := ⟨2, ![128, 16384]⟩
abbrev S16384x16384 : Shape := ⟨2, ![16384, 16384]⟩
abbrev S16384x64 : Shape := ⟨2, ![16384, 64]⟩
abbrev S64x128 : Shape := ⟨2, ![64, 128]⟩
abbrev S16384x128 : Shape := ⟨2, ![16384, 128]⟩
abbrev S128x128 : Shape := ⟨2, ![128, 128]⟩

abbrev nBuf : Space → Nat
  | .hbm => 7
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S16384x16384, .f32⟩
  | .hbm, ⟨2, _⟩ => ⟨S16384x64, .f32⟩
  | .hbm, ⟨3, _⟩ => ⟨S64x128, .f32⟩
  | .hbm, ⟨4, _⟩ => ⟨S16384x128, .f32⟩
  | .hbm, ⟨5, _⟩ => ⟨S128x16384, .f32⟩
  | .hbm, ⟨6, _⟩ => ⟨S128x128, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S16384x64_S64x128_S16384x128_1_0_0_1_n_n_wf : DotDims.WF S16384x64 S64x128 S16384x128 [1] [0] [0] [1] [] []
  dot_S128x16384_S16384x16384_S128x16384_1_1_0_0_n_n_wf : DotDims.WF S128x16384 S16384x16384 S128x16384 [1] [1] [0] [0] [] []
  dot_S128x16384_S16384x128_S128x128_1_0_0_1_n_n_wf : DotDims.WF S128x16384 S16384x128 S128x128 [1] [0] [0] [1] [] []

variable [Facts₀]

def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S128x16384_S16384x16384_S128x16384_1_1_0_0_n_n : DotDims S128x16384 S16384x16384 S128x16384 where
  lhsContracting := [1]
  rhsContracting := [1]
  lhsNonContracting := [0]
  rhsNonContracting := [0]
  lhsBatch := []
  rhsBatch := []
  wf := dot_S128x16384_S16384x16384_S128x16384_1_1_0_0_n_n_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf

class Facts : Prop extends Facts₀ where

variable [Facts]
-- ==== Proof.SumBlocks.lean ====
/-
  A sum over the 16384 indices c, read block by block.

  The kernel walks the contracted axis in 2 * 64 blocks of 128 consecutive indices: the half p (one per core), the step s
  inside the half, the lane l inside the block, and the index is c = (p * 64 + s) * 128 + l.  Every c in 0 .. 16383 is hit
  exactly once, so a sum over all c is the sum over p of the sum over s of the sum over l.  Only commutativity and
  associativity of the addition are used: the law holds in every additive commutative monoid, in particular on the
  extended reals, where no finiteness is needed for it.
-/
import Mathlib.Algebra.BigOperators.Fin
import Mathlib.Logic.Equiv.Fin.Basic

namespace Cert.SumBlocks

open Finset

/-- The index the half `p`, the step `s` and the lane `l` name: `(p * 64 + s) * 128 + l`. -/
def cidx (p : Fin 2) (s : Fin 64) (l : Fin 128) : Fin 16384 :=
  ⟨(p.val * 64 + s.val) * 128 + l.val, by omega⟩

@[simp] theorem cidx_val (p : Fin 2) (s : Fin 64) (l : Fin 128) :
    (cidx p s l).val = (p.val * 64 + s.val) * 128 + l.val := rfl

/-- The triples (half, step, lane) are the indices, each once. -/
def blocks : (Fin 2 × Fin 64) × Fin 128 ≃ Fin 16384 :=
  (finProdFinEquiv.prodCongr (Equiv.refl (Fin 128))).trans (finProdFinEquiv (m := 2 * 64) (n := 128))

theorem blocks_apply (p : Fin 2) (s : Fin 64) (l : Fin 128) : blocks ((p, s), l) = cidx p s l := by
  apply Fin.ext
  show l.val + 128 * (s.val + 64 * p.val) = (p.val * 64 + s.val) * 128 + l.val
  omega

/-- A sum over all 16384 indices is the sum, half by half and step by step, of the sums over each block's 128 lanes. -/
theorem sum_blocks {M : Type*} [AddCommMonoid M] (f : Fin 16384 → M) :
    ∑ c, f c = ∑ p : Fin 2, ∑ s : Fin 64, ∑ l : Fin 128, f (cidx p s l) := by
  rw [← Equiv.sum_comp blocks f, Fintype.sum_prod_type, Fintype.sum_prod_type]
  simp only [blocks_apply]

end Cert.SumBlocks
-- ==== Proof.Spec.lean ====
/-
  What both programs compute, as ONE function of the four argument arrays, over the extended reals.

  With a0 : [128, 16384] (pools by cards), a1 : [16384, 16384] (the metapath, cards by cards), a2 : [16384, 64] (card
  embeddings) and a3 : [64, 128] (the projection), put

      pooled b c   = sum over d of a0[b, d] * a1[c, d]          (pool b against row c of the metapath)
      embedded c m = sum over e of a2[c, e] * a3[e, m]          (card c's projected embedding)
      result[b, m] = sum over c of pooled b c * embedded c m.

  The kernel never forms the sum over all 16384 cards c at once: it takes them 128 at a time.  The contribution of
  one block of 128 consecutive cards is written `blockSum` below, over the block's own rows of a1 and a2; `part u` is
  that contribution for block number u (cards 128 u .. 128 u + 127).
-/
import Idealize.ShloMosaic.PureOps.Ideal
import Idealize.ShloMosaic.Lib.ValueIdx
import proofs.«113139_j78683800863346_2_alg».proof.Proof.SumBlocks

noncomputable section

open scoped BigOperators

namespace Cert.Spec

open Idealize.ShloMosaic Idealize.ShloMosaic.ValueIdx

/-- The shapes of the four arguments, of one block of rows of the second and third, and of the result. -/
abbrev Pools : Shape := ⟨2, ![128, 16384]⟩
abbrev Meta : Shape := ⟨2, ![16384, 16384]⟩
abbrev Cards : Shape := ⟨2, ![16384, 64]⟩
abbrev Proj : Shape := ⟨2, ![64, 128]⟩
abbrev MetaRows : Shape := ⟨2, ![128, 16384]⟩
abbrev CardRows : Shape := ⟨2, ![128, 64]⟩
abbrev Res : Shape := ⟨2, ![128, 128]⟩

/-- The contribution of 128 cards to `result[b, m]`, from the pools `x0`, those cards' rows `x1` of the metapath, their
    embeddings `x2` and the projection `x3`: the sum over the 128 cards `l` of (pool `b` against card `l`'s metapath row)
    times (card `l`'s projected embedding at `m`). -/
def blockSum (x0 : Pools.Idx → EReal) (x1 : MetaRows.Idx → EReal) (x2 : CardRows.Idx → EReal) (x3 : Proj.Idx → EReal)
    (b mm : Fin 128) : EReal :=
  ∑ l : Fin 128, (∑ d : Fin 16384, x0 (ix2 b d) * x1 (ix2 l d)) * (∑ e : Fin 64, x2 (ix2 l e) * x3 (ix2 e mm))

section
variable (a0 : Pools.Idx → EReal) (a1 : Meta.Idx → EReal) (a2 : Cards.Idx → EReal) (a3 : Proj.Idx → EReal)

/-- Pool `b` against row `c` of the metapath. -/
def pooled (b : Fin 128) (c : Fin 16384) : EReal := ∑ d : Fin 16384, a0 (ix2 b d) * a1 (ix2 c d)

/-- Card `c`'s projected embedding at `m`. -/
def embedded (c : Fin 16384) (mm : Fin 128) : EReal := ∑ e : Fin 64, a2 (ix2 c e) * a3 (ix2 e mm)

/-- Card `c`'s term of `result[b, m]`. -/
def term (b mm : Fin 128) (c : Fin 16384) : EReal := pooled a0 a1 b c * embedded a2 a3 c mm

/-- THE RESULT: `result[b, m]` is the sum of the terms of all 16384 cards. -/
def result : Res.Idx → EReal := fun j => ∑ c : Fin 16384, term a0 a1 a2 a3 (j 0) (j 1) c

/-- Card `l` of block `u`: card number `128 u + l`. -/
def card (u l : Fin 128) : Fin 16384 := ⟨u.val * 128 + l.val, by omega⟩

@[simp] theorem card_val (u l : Fin 128) : (card u l).val = u.val * 128 + l.val := rfl

/-- Block `u`'s rows of the metapath and of the card embeddings. -/
def metaRows (u : Fin 128) : MetaRows.Idx → EReal := fun y => a1 (ix2 (card u (y 0)) (y 1))
def cardRows (u : Fin 128) : CardRows.Idx → EReal := fun y => a2 (ix2 (card u (y 0)) (y 1))

/-- Block `u`'s contribution to `result[b, m]`: the terms of its 128 cards. -/
def part (u : Fin 128) (b mm : Fin 128) : EReal := ∑ l : Fin 128, term a0 a1 a2 a3 b mm (card u l)

/-- It is the `blockSum` of the block's rows. -/
theorem part_eq_blockSum (u b mm : Fin 128) :
    part a0 a1 a2 a3 u b mm = blockSum a0 (metaRows a1 u) (cardRows a2 u) a3 b mm := rfl

end

end Cert.Spec

end
-- ==== Proof.RefIsSpec.lean ====
/-
  The reference computes the specification.

  The reference is three host contractions: X = a2 . a3 over the 64 embedding dimensions, P = a0 . a1^T over the second
  axis of both, and P . X over the 16384 cards.  Read at [b, m] — each contraction is an exact sum of products over the
  extended reals — the last one is the sum over the cards c of P[b, c] * X[c, m], with P[b, c] the sum over d of
  a0[b, d] * a1[c, d] and X[c, m] the sum over e of a2[c, e] * a3[e, m]: the specification's `result`, term for term.
-/
import proofs.«113139_j78683800863346_2_alg».proof.Proof.Gen.ReferenceIdeal.Read
import proofs.«113139_j78683800863346_2_alg».proof.Proof.Spec

noncomputable section

open scoped BigOperators

namespace Cert.ReferenceIdeal.RefValue

open Cert.ReferenceIdeal Cert.ReferenceIdeal.Read Idealize.ShloMosaic Idealize.ShloMosaic.ValueIdx

/-- The reference's result, as a function of the four arguments, is the specification's. -/
theorem reference_eq (x0 : (⟨S128x16384, .f32⟩ : BufTy).Contents (Elt Ideal)) (x1 : (⟨S16384x16384, .f32⟩ : BufTy).Contents (Elt Ideal))
    (x2 : (⟨S16384x64, .f32⟩ : BufTy).Contents (Elt Ideal)) (x3 : (⟨S64x128, .f32⟩ : BufTy).Contents (Elt Ideal)) :
    val_main_v2 (F := Ideal) x0 x1 x2 x3 = Cert.Spec.result x0 x1 x2 x3 := by
  funext i
  obtain ⟨b, mm, rfl⟩ : ∃ (b mm : Fin 128), i = ix2 b mm := ⟨i 0, i 1, eq_ix2 i⟩
  rw [val_main_v2_apply]
  unfold Cert.Spec.result Cert.Spec.term Cert.Spec.pooled Cert.Spec.embedded
  refine Finset.sum_congr rfl fun c _ => ?_
  rw [val_main_v1_apply, val_main_v0_apply]
  -- the composed operand indices are the coordinates they name
  have e0 : ∀ k : Fin 16384, lidx_main_v1 (lidx_main_v2 (ix2 b mm) c) k = ix2 b k := fun k =>
    funext fun a => by match a with | ⟨0, _⟩ => rfl | ⟨1, _⟩ => rfl
  have e1 : ∀ k : Fin 16384, ridx_main_v1 (lidx_main_v2 (ix2 b mm) c) k = ix2 c k := fun k =>
    funext fun a => by match a with | ⟨0, _⟩ => rfl | ⟨1, _⟩ => rfl
  have e2 : ∀ k : Fin 64, lidx_main_v0 (ridx_main_v2 (ix2 b mm) c) k = ix2 c k := fun k =>
    funext fun a => by match a with | ⟨0, _⟩ => rfl | ⟨1, _⟩ => rfl
  have e3 : ∀ k : Fin 64, ridx_main_v0 (ridx_main_v2 (ix2 b mm) c) k = ix2 k mm := fun k =>
    funext fun a => by match a with | ⟨0, _⟩ => rfl | ⟨1, _⟩ => rfl
  simp only [e0, e1, e2, e3]

end Cert.ReferenceIdeal.RefValue

end
-- ==== Proof.Pieces.lean ====
/-
  What one run of the kernel body leaves behind, case by case, as values.

  The body has three control cases, told apart by the step inside a half of the cards:
    * first step: the accumulator is reset to zero and then has the block's contribution added — it ends at the
      accumulation's value over the zero block;
    * a middle step: the accumulator ends at the accumulation's value over what it held before;
    * last step: the same, and the output block receives the accumulator's new contents under a leading unit axis.
  Every load and store of the body goes through the whole of its buffer, so a buffer stored once holds exactly the stored
  value, a buffer stored twice holds the second value, and a load after a store reads the stored value back.  These hold
  for any interpretation of the float operations.
-/
import proofs.«113139_j78683800863346_2_alg».proof.Proof.Gen.KernelIdeal.Frame
import Idealize.ShloMosaic.Lib.Pipeline.Value
import Idealize.ShloMosaic.Lib.Tactic

noncomputable section

namespace Cert.KernelIdeal.Found

open Cert.KernelIdeal Cert.KernelIdeal.Gen Idealize.ShloMosaic Idealize.ShloMosaic.TcCoe Idealize.ShloMosaic.Tactic Idealize.SL.Sem

variable {F : FTy → Type} [FloatOps F]

/-- A rectangle at the origin, in rank 2 and in rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves the accumulator at the accumulation's value over what it held. -/
theorem scratch_B (c : Dev nD) (i : grid0.Coords) (a2 : Memref sig .tc .vmem S128x16384 .bf16) (h2 : a2.IsWhole) (a3 : Memref sig .tc .vmem S128x16384 .f32) (h3 : a3.IsWhole) (a4 : Memref sig .tc .vmem S128x64 .f32) (h4 : a4.IsWhole) (a5 : Memref sig .tc .vmem S64x128 .f32) (h5 : a5.IsWhole) (a6 : Memref sig .tc .vmem S1x128x128 .f32) (h6 : a6.IsWhole) (a7 : Memref sig .tc .vmem S128x128 .f32) (h7 : a7.IsWhole) (hc0 : ¬cond0_0 i) (hc1 : ¬cond0_1 i) (x0 : Vec F S128x16384 .bf16) (x1 : Vec F S128x16384 .f32) (x2 : Vec F S128x64 .f32) (x3 : Vec F S64x128 .f32) (xs0 : Vec F S128x128 .f32) :
    sout0_B_0 c i a2 h2 a3 h3 a4 h4 a5 h5 a6 h6 a7 h7 hc0 hc1 x0 x1 x2 x3 xs0 = k0_pay2 x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz2]
  simp only [View.readAt_eq_ld, h2.read_unread, h3.read_unread, h4.read_unread, h5.read_unread, h7.read_unread,
    View.ld_unit_zero (S := S128x16384) hz2, View.ld_unit_zero (S := S128x64) hz2, View.ld_unit_zero (S := S64x128) hz2,
    View.ld_unit_zero (S := S128x128) hz2]

/-- The last step leaves the accumulator at the same value, -/
theorem scratch_C (c : Dev nD) (i : grid0.Coords) (a2 : Memref sig .tc .vmem S128x16384 .bf16) (h2 : a2.IsWhole) (a3 : Memref sig .tc .vmem S128x16384 .f32) (h3 : a3.IsWhole) (a4 : Memref sig .tc .vmem S128x64 .f32) (h4 : a4.IsWhole) (a5 : Memref sig .tc .vmem S64x128 .f32) (h5 : a5.IsWhole) (a6 : Memref sig .tc .vmem S1x128x128 .f32) (h6 : a6.IsWhole) (a7 : Memref sig .tc .vmem S128x128 .f32) (h7 : a7.IsWhole) (hc0 : ¬cond0_0 i) (hc1 : cond0_1 i) (x0 : Vec F S128x16384 .bf16) (x1 : Vec F S128x16384 .f32) (x2 : Vec F S128x64 .f32) (x3 : Vec F S64x128 .f32) (xs0 : Vec F S128x128 .f32) :
    sout0_C_0 c i a2 h2 a3 h3 a4 h4 a5 h5 a6 h6 a7 h7 hc0 hc1 x0 x1 x2 x3 xs0 = k0_pay2 x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h7.read_unread,
    View.ld_unit_zero (S := S128x16384) hz2, View.ld_unit_zero (S := S128x64) hz2, View.ld_unit_zero (S := S64x128) hz2,
    View.ld_unit_zero (S := S128x128) hz2]

/-- and the output block at that value under a leading unit axis: the write-back reads the accumulator after the
    accumulation's store. -/
theorem out_C (c : Dev nD) (i : grid0.Coords) (a2 : Memref sig .tc .vmem S128x16384 .bf16) (h2 : a2.IsWhole) (a3 : Memref sig .tc .vmem S128x16384 .f32) (h3 : a3.IsWhole) (a4 : Memref sig .tc .vmem S128x64 .f32) (h4 : a4.IsWhole) (a5 : Memref sig .tc .vmem S64x128 .f32) (h5 : a5.IsWhole) (a6 : Memref sig .tc .vmem S1x128x128 .f32) (h6 : a6.IsWhole) (a7 : Memref sig .tc .vmem S128x128 .f32) (h7 : a7.IsWhole) (hc0 : ¬cond0_0 i) (hc1 : cond0_1 i) (x0 : Vec F S128x16384 .bf16) (x1 : Vec F S128x16384 .f32) (x2 : Vec F S128x64 .f32) (x3 : Vec F S64x128 .f32) (xs0 : Vec F S128x128 .f32) :
    out0_C_4 c i a2 h2 a3 h3 a4 h4 a5 h5 a6 h6 a7 h7 hc0 hc1 x0 x1 x2 x3 xs0 = k0_pay3 (k0_pay2 x0 x1 x2 x3 xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz3, View.readCov_unit_zero (S := S128x128) _ hz2]
  simp only [View.readAt_eq_ld, h2.read_unread, h3.read_unread, h4.read_unread, h5.read_unread, h7.read_unread,
    View.ld_unit_zero (S := S128x16384) hz2, View.ld_unit_zero (S := S128x64) hz2, View.ld_unit_zero (S := S64x128) hz2,
    View.ld_unit_zero (S := S128x128) hz2]

/-- The first step leaves the accumulator at the accumulation's value over the zero block: the accumulation reads the
    accumulator after the reset's store. -/
theorem scratch_A (c : Dev nD) (i : grid0.Coords) (a2 : Memref sig .tc .vmem S128x16384 .bf16) (h2 : a2.IsWhole) (a3 : Memref sig .tc .vmem S128x16384 .f32) (h3 : a3.IsWhole) (a4 : Memref sig .tc .vmem S128x64 .f32) (h4 : a4.IsWhole) (a5 : Memref sig .tc .vmem S64x128 .f32) (h5 : a5.IsWhole) (a6 : Memref sig .tc .vmem S1x128x128 .f32) (h6 : a6.IsWhole) (a7 : Memref sig .tc .vmem S128x128 .f32) (h7 : a7.IsWhole) (hc0 : cond0_0 i) (hc1 : ¬cond0_1 i) (x0 : Vec F S128x16384 .bf16) (x1 : Vec F S128x16384 .f32) (x2 : Vec F S128x64 .f32) (x3 : Vec F S64x128 .f32) :
    sout0_A_0 c i a2 h2 a3 h3 a4 h4 a5 h5 a6 h6 a7 h7 hc0 hc1 x0 x1 x2 x3 = k0_pay2 x0 x1 x2 x3 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S128x128) hz2, View.readCov_unit_zero (S := S128x128) _ hz2]
  simp only [View.readAt_eq_ld, h2.read_unread, h3.read_unread, h4.read_unread, h5.read_unread,
    View.ld_unit_zero (S := S128x16384) hz2, View.ld_unit_zero (S := S128x64) hz2, View.ld_unit_zero (S := S64x128) hz2]

end Cert.KernelIdeal.Found

end
-- ==== Proof.Payload.lean ====
/-
  The three values the kernel body stores, read at an index, over the extended reals.

  * the reset stores zero everywhere;
  * the accumulation stores, at [b, m], what the accumulator held there plus the block's contribution: the sum over the
    block's 128 cards l of (pool b against card l's metapath row) times (card l's projected embedding at m) — three
    matrix products into zero accumulators, each an exact sum of products over its one contracted axis; the changes of
    float format in front of them are the identity on the extended reals, and the product's precision setting plays no
    part there;
  * the write-back stores the accumulator under one more leading axis of extent 1: entry [0, b, m] is entry [b, m].
-/
import proofs.«113139_j78683800863346_2_alg».proof.Proof.Gen.KernelIdeal.Skeleton
import proofs.«113139_j78683800863346_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The three products' dimension numbers: pools against metapath rows (both contracted along their second axis),
    card embeddings against the projection, and the product of the two results. -/
abbrev DP := dot_S128x16384_S128x16384_S128x128_1_1_0_0_n_n
abbrev DX := dot_S128x64_S64x128_S128x128_1_0_0_1_n_n
abbrev DO := dot_S128x128_S128x128_S128x128_1_0_0_1_n_n

/-- The zero accumulator each product starts from. -/
abbrev Z : FVec Ideal S128x128 .f32 := constant S128x128 .f32 0x00000000#32

/-! ## Pools against metapath rows: entry [b, l] sums over the shared second axis -/

theorem DP_l0 (i : S128x128.Idx) (q : DP.contr.Idx) : (DP.lhsIdx i q 0).val = (i 0).val := by
  unfold DotDims.lhsIdx
  rw [dif_neg (show ¬(0 : Fin S128x16384.rank) ∈ DP.lhsBatch by decide), dif_pos (show (0 : Fin S128x16384.rank) ∈ DP.lhsNonContracting by decide)]
  rfl
theorem DP_l1 (i : S128x128.Idx) (q : DP.contr.Idx) : (DP.lhsIdx i q 1).val = (q ⟨0, by decide⟩).val :=
  DP.lhsIdx_val_of_single rfl i q
theorem DP_r0 (i : S128x128.Idx) (q : DP.contr.Idx) : (DP.rhsIdx i q 0).val = (i 1).val := by
  unfold DotDims.rhsIdx
  rw [dif_neg (show ¬(0 : Fin S128x16384.rank) ∈ DP.rhsBatch by decide), dif_pos (show (0 : Fin S128x16384.rank) ∈ DP.rhsNonContracting by decide)]
  rfl
theorem DP_r1 (i : S128x128.Idx) (q : DP.contr.Idx) : (DP.rhsIdx i q 1).val = (q ⟨0, by decide⟩).val :=
  DP.rhsIdx_val_of_single rfl i q

theorem pooled_apply {φ₁ φ₂ : FTy} (L : FVec Ideal S128x16384 φ₁) (R : FVec Ideal S128x16384 φ₂) (b l : Fin 128) :
    FloatOps.matmul DP none L R Z (ix2 b l) = ∑ d : Fin 16384, L (ix2 b d) * R (ix2 l d) := by
  rw [Ideal.matmul_constant_zero_apply, ← Equiv.sum_comp (contrEquiv1 DP 16384 rfl rfl).symm]
  refine Finset.sum_congr rfl fun k _ => ?_
  have hk := contrEquiv1_symm_val DP 16384 rfl rfl k
  have el : DP.lhsIdx (ix2 b l) ((contrEquiv1 DP 16384 rfl rfl).symm k) = ix2 b k := funext fun a => Fin.ext (by
    match a with
    | ⟨0, _⟩ => exact DP_l0 _ _
    | ⟨1, _⟩ => exact (DP_l1 _ _).trans hk)
  have er : DP.rhsIdx (ix2 b l) ((contrEquiv1 DP 16384 rfl rfl).symm k) = ix2 l k := funext fun a => Fin.ext (by
    match a with
    | ⟨0, _⟩ => exact DP_r0 _ _
    | ⟨1, _⟩ => exact (DP_r1 _ _).trans hk)
  rw [el, er]

/-! ## Card embeddings against the projection: entry [l, m] sums over the 64 embedding dimensions -/

theorem DX_l0 (i : S128x128.Idx) (q : DX.contr.Idx) : (DX.lhsIdx i q 0).val = (i 0).val := by
  unfold DotDims.lhsIdx
  rw [dif_neg (show ¬(0 : Fin S128x64.rank) ∈ DX.lhsBatch by decide), dif_pos (show (0 : Fin S128x64.rank) ∈ DX.lhsNonContracting by decide)]
  rfl
theorem DX_l1 (i : S128x128.Idx) (q : DX.contr.Idx) : (DX.lhsIdx i q 1).val = (q ⟨0, by decide⟩).val :=
  DX.lhsIdx_val_of_single rfl i q
theorem DX_r0 (i : S128x128.Idx) (q : DX.contr.Idx) : (DX.rhsIdx i q 0).val = (q ⟨0, by decide⟩).val :=
  DX.rhsIdx_val_of_single rfl i q
theorem DX_r1 (i : S128x128.Idx) (q : DX.contr.Idx) : (DX.rhsIdx i q 1).val = (i 1).val := by
  unfold DotDims.rhsIdx
  rw [dif_neg (show ¬(1 : Fin S64x128.rank) ∈ DX.rhsBatch by decide), dif_pos (show (1 : Fin S64x128.rank) ∈ DX.rhsNonContracting by decide)]
  rfl

theorem embedded_apply {φ₁ φ₂ : FTy} (L : FVec Ideal S128x64 φ₁) (R : FVec Ideal S64x128 φ₂) (l mm : Fin 128) :
    FloatOps.matmul DX none L R Z (ix2 l mm) = ∑ e : Fin 64, L (ix2 l e) * R (ix2 e mm) := by
  rw [Ideal.matmul_constant_zero_apply, ← Equiv.sum_comp (contrEquiv1 DX 64 rfl rfl).symm]
  refine Finset.sum_congr rfl fun k _ => ?_
  have hk := contrEquiv1_symm_val DX 64 rfl rfl k
  have el : DX.lhsIdx (ix2 l mm) ((contrEquiv1 DX 64 rfl rfl).symm k) = ix2 l k := funext fun a => Fin.ext (by
    match a with
    | ⟨0, _⟩ => exact DX_l0 _ _
    | ⟨1, _⟩ => exact (DX_l1 _ _).trans hk)
  have er : DX.rhsIdx (ix2 l mm) ((contrEquiv1 DX 64 rfl rfl).symm k) = ix2 k mm := funext fun a => Fin.ext (by
    match a with
    | ⟨0, _⟩ => exact (DX_r0 _ _).trans hk
    | ⟨1, _⟩ => exact DX_r1 _ _)
  rw [el, er]

/-! ## The product of the two: entry [b, m] sums over the block's 128 cards -/

theorem DO_l0 (i : S128x128.Idx) (q : DO.contr.Idx) : (DO.lhsIdx i q 0).val = (i 0).val := by
  unfold DotDims.lhsIdx
  rw [dif_neg (show ¬(0 : Fin S128x128.rank) ∈ DO.lhsBatch by decide), dif_pos (show (0 : Fin S128x128.rank) ∈ DO.lhsNonContracting by decide)]
  rfl
theorem DO_l1 (i : S128x128.Idx) (q : DO.contr.Idx) : (DO.lhsIdx i q 1).val = (q ⟨0, by decide⟩).val :=
  DO.lhsIdx_val_of_single rfl i q
theorem DO_r0 (i : S128x128.Idx) (q : DO.contr.Idx) : (DO.rhsIdx i q 0).val = (q ⟨0, by decide⟩).val :=
  DO.rhsIdx_val_of_single rfl i q
theorem DO_r1 (i : S128x128.Idx) (q : DO.contr.Idx) : (DO.rhsIdx i q 1).val = (i 1).val := by
  unfold DotDims.rhsIdx
  rw [dif_neg (show ¬(1 : Fin S128x128.rank) ∈ DO.rhsBatch by decide), dif_pos (show (1 : Fin S128x128.rank) ∈ DO.rhsNonContracting by decide)]
  rfl

theorem cards_apply {φ₁ φ₂ : FTy} (L : FVec Ideal S128x128 φ₁) (R : FVec Ideal S128x128 φ₂) (b mm : Fin 128) :
    FloatOps.matmul DO (some .fp32) L R Z (ix2 b mm) = ∑ l : Fin 128, L (ix2 b l) * R (ix2 l mm) := by
  rw [Ideal.matmul_constant_zero_apply, ← Equiv.sum_comp (contrEquiv1 DO 128 rfl rfl).symm]
  refine Finset.sum_congr rfl fun k _ => ?_
  have hk := contrEquiv1_symm_val DO 128 rfl rfl k
  have el : DO.lhsIdx (ix2 b mm) ((contrEquiv1 DO 128 rfl rfl).symm k) = ix2 b k := funext fun a => Fin.ext (by
    match a with
    | ⟨0, _⟩ => exact DO_l0 _ _
    | ⟨1, _⟩ => exact (DO_l1 _ _).trans hk)
  have er : DO.rhsIdx (ix2 b mm) ((contrEquiv1 DO 128 rfl rfl).symm k) = ix2 k mm := funext fun a => Fin.ext (by
    match a with
    | ⟨0, _⟩ => exact (DO_r0 _ _).trans hk
    | ⟨1, _⟩ => exact DO_r1 _ _)
  rw [el, er]

/-! ## The stored values -/

/-- The reset's value: zero at every index. -/
theorem reset_apply (j : S128x128.Idx) : k0_pay1 (F := Ideal) j = 0 := by
  unfold k0_pay1
  simp only [shapeCast_self]
  exact Ideal.ofBits_zero_f32

/-- The accumulation's value as a vector: the shape casts change nothing and the format changes are the identity. -/
theorem step_eq (x0 : FVec Ideal S128x16384 .bf16) (x1 : FVec Ideal S128x16384 .f32) (x2 : FVec Ideal S128x64 .f32)
    (x3 : FVec Ideal S64x128 .f32) (xs : FVec Ideal S128x128 .f32) :
    k0_pay2 (F := Ideal) x0 x1 x2 x3 xs
      = addf xs (FloatOps.matmul DO (some .fp32) (FloatOps.matmul DP none x0 x1 Z) (FloatOps.matmul DX none x2 x3 Z) Z) := by
  unfold k0_pay2
  simp only [shapeCast_self]
  rfl

/-- The accumulation's value at [b, m]: what the accumulator held plus the block's contribution. -/
theorem step_apply (x0 : FVec Ideal S128x16384 .bf16) (x1 : FVec Ideal S128x16384 .f32) (x2 : FVec Ideal S128x64 .f32)
    (x3 : FVec Ideal S64x128 .f32) (xs : FVec Ideal S128x128 .f32) (b mm : Fin 128) :
    k0_pay2 (F := Ideal) x0 x1 x2 x3 xs (ix2 b mm) = xs (ix2 b mm) + Cert.Spec.blockSum x0 x1 x2 x3 b mm := by
  rw [step_eq, addf_apply, cards_apply]
  unfold Cert.Spec.blockSum
  refine congrArg (xs (ix2 b mm) + ·) (Finset.sum_congr rfl fun l _ => ?_)
  rw [pooled_apply, embedded_apply]

/-- The write-back's value: entry [0, b, m] of the block is entry [b, m] of the accumulator. -/
theorem flush_apply (v : FVec Ideal S128x128 .f32) (u : Fin 1) (b mm : Fin 128) :
    k0_pay3 (F := Ideal) v (ix3 u b mm) = v (ix2 b mm) := by
  unfold k0_pay3
  exact shapeCast_ab_1ab_apply v _ u b mm

end Cert.KernelIdeal.Pay

end
-- ==== Proof.Blocks.lean ====
/-
  The input blocks the body is handed at a grid point, read at an index, as entries of the argument arrays.

  Point t (t = 0 .. 127) works on block t of the cards:
    * the pools window is the whole [128, 16384] array at every point — and that array is the first argument passed
      through a change of float format on the host, which keeps every entry as it is stored;
    * the metapath window is rows 128 t .. 128 t + 127 of the second argument, all 16384 columns;
    * the card window is rows 128 t .. 128 t + 127 of the third argument, all 64 columns;
    * the projection window is the whole fourth argument.
  A block's entry [y0, y1] is the array's entry [index0 * size0 + y0, index1 * size1 + y1]; the block indices of the four
  windows are decided once over the 128 grid points.
-/
import proofs.«113139_j78683800863346_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The block indices of the four input windows at point `t`: the row-blocked windows sit at block row `t`, the others
    at the origin. -/
theorem idx_pools : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx_meta : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_cards : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_proj : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The array the pools window stages is the first argument after the host's change of float format. -/
theorem pools_array (c : Dev nD) :
    (V m c main_v0 : S128x16384.Idx → F .bf16) = truncf .bf16 (m ((c : Thread nD τ).loc main_arg0)) bitsLt_bf16_f32 := by
  show StableHlo.after hostOps0 (fun b => m (c, b)) (Proc.devRef .tc main_v0) = _
  after_results

/-- The pools block at any point is that whole array. -/
theorem pools_apply (c : Dev nD) (t : Fin cfg0.N) (b : Fin 128) (d : Fin 16384) :
    (iblk m c 0 t : Vec F S128x16384 .bf16) (ix2 b d)
      = (truncf .bf16 (m ((c : Thread nD τ).loc main_arg0)) bitsLt_bf16_f32 : FVec F S128x16384 .bf16) (ix2 b d) := by
  unfold iblk
  rw [View.read_apply]
  show V m c main_v0 _ = _
  refine (congrArg (V m c main_v0) ?_).trans (congrFun (pools_array m c) (ix2 b d))
  funext a
  apply Fin.ext
  match a with
  | ⟨0, _⟩ => show win0_0.index t 0 * 128 + 1 * b.val = b.val; rw [(idx_pools t).1]; omega
  | ⟨1, _⟩ => show win0_0.index t 1 * 16384 + 1 * d.val = d.val; rw [(idx_pools t).2]; omega

/-- The metapath block at point `t`: row `l` of the block is row `r = 128 t + l` of the second argument. -/
theorem meta_apply (c : Dev nD) (t : Fin cfg0.N) (l : Fin 128) (d : Fin 16384) (r : Fin 16384) (hr : r.val = t.val * 128 + l.val) :
    (iblk m c 1 t : Vec F S128x16384 .f32) (ix2 l d) = m ((c : Thread nD τ).loc main_arg1) (ix2 r d) := by
  unfold iblk
  rw [View.read_apply]
  show V m c main_arg1 _ = _
  refine (congrArg (V m c main_arg1) ?_).trans (congrFun (V_main_arg1 m c) (ix2 r d))
  funext a
  apply Fin.ext
  match a with
  | ⟨0, _⟩ => show win0_1.index t 0 * 128 + 1 * l.val = r.val; rw [(idx_meta t).1, hr]; omega
  | ⟨1, _⟩ => show win0_1.index t 1 * 16384 + 1 * d.val = d.val; rw [(idx_meta t).2]; omega

/-- The card block at point `t`: row `l` of the block is row `r = 128 t + l` of the third argument. -/
theorem cards_apply (c : Dev nD) (t : Fin cfg0.N) (l : Fin 128) (e : Fin 64) (r : Fin 16384) (hr : r.val = t.val * 128 + l.val) :
    (iblk m c 2 t : Vec F S128x64 .f32) (ix2 l e) = m ((c : Thread nD τ).loc main_arg2) (ix2 r e) := by
  unfold iblk
  rw [View.read_apply]
  show V m c main_arg2 _ = _
  refine (congrArg (V m c main_arg2) ?_).trans (congrFun (V_main_arg2 m c) (ix2 r e))
  funext a
  apply Fin.ext
  match a with
  | ⟨0, _⟩ => show win0_2.index t 0 * 128 + 1 * l.val = r.val; rw [(idx_cards t).1, hr]; omega
  | ⟨1, _⟩ => show win0_2.index t 1 * 64 + 1 * e.val = e.val; rw [(idx_cards t).2]; omega

/-- The projection block at any point is the whole fourth argument. -/
theorem proj_apply (c : Dev nD) (t : Fin cfg0.N) (e : Fin 64) (mm : Fin 128) :
    (iblk m c 3 t : Vec F S64x128 .f32) (ix2 e mm) = m ((c : Thread nD τ).loc main_arg3) (ix2 e mm) := by
  unfold iblk
  rw [View.read_apply]
  show V m c main_arg3 _ = _
  refine (congrArg (V m c main_arg3) ?_).trans (congrFun (V_main_arg3 m c) (ix2 e mm))
  funext a
  apply Fin.ext
  match a with
  | ⟨0, _⟩ => show win0_3.index t 0 * 64 + 1 * e.val = e.val; rw [(idx_proj t).1]; omega
  | ⟨1, _⟩ => show win0_3.index t 1 * 128 + 1 * mm.val = mm.val; rw [(idx_proj t).2]; omega

end Cert.KernelIdeal.Blocks

end
-- ==== Proof.Running.lean ====
/-
  The accumulator, step by step.

  The grid has 128 points n = 0 .. 127; point n handles block n of 128 cards, and the points come in two runs of 64
  (one per half of the cards): n = 0 .. 63 and n = 64 .. 127.  Inside a run the accumulator is reset at the run's first
  point (n % 64 = 0) and then grows by one block's contribution per point, so after point n it holds the contributions of
  the blocks from the start of n's run up to n.  `acc n` is that sum.  It obeys the kernel's recurrence — zero plus the
  block's part at a run's first point, the previous value plus the block's part elsewhere — and the two values at the ends
  of the runs (n = 63 and n = 127) add up to the sum over all 16384 cards: the blocks of the two runs are all the cards,
  each once.  Only the commutative-monoid laws of the addition are used.
-/
import proofs.«113139_j78683800863346_2_alg».proof.Proof.Spec

noncomputable section

open scoped BigOperators

namespace Cert.Spec

open Idealize.ShloMosaic Idealize.ShloMosaic.ValueIdx

variable (a0 : Pools.Idx → EReal) (a1 : Meta.Idx → EReal) (a2 : Cards.Idx → EReal) (a3 : Proj.Idx → EReal)

/-- Block `u`'s contribution with the block number a natural number (zero past the last block, which no point reaches). -/
def partN (u : ℕ) (b mm : Fin 128) : EReal := if h : u < 128 then part a0 a1 a2 a3 ⟨u, h⟩ b mm else 0

theorem partN_of_lt (u : ℕ) (h : u < 128) (b mm : Fin 128) :
    partN a0 a1 a2 a3 u b mm = part a0 a1 a2 a3 ⟨u, h⟩ b mm := dif_pos h

/-- The accumulator after point `n`: the contributions of the blocks `n - n % 64 .. n`. -/
def acc (n : ℕ) (b mm : Fin 128) : EReal :=
  ∑ j ∈ Finset.range (n % 64 + 1), partN a0 a1 a2 a3 (n - n % 64 + j) b mm

/-- At a run's first point: zero plus the block's contribution. -/
theorem acc_first (n : ℕ) (h : n % 64 = 0) (b mm : Fin 128) :
    acc a0 a1 a2 a3 n b mm = 0 + partN a0 a1 a2 a3 n b mm := by
  unfold acc
  rw [h, Finset.sum_range_one, zero_add]
  rfl

/-- At any other point: what the point before left, plus the block's contribution. -/
theorem acc_step (n : ℕ) (h : ¬n % 64 = 0) (b mm : Fin 128) :
    acc a0 a1 a2 a3 n b mm = acc a0 a1 a2 a3 (n - 1) b mm + partN a0 a1 a2 a3 n b mm := by
  unfold acc
  have h1 : n % 64 + 1 = ((n - 1) % 64 + 1) + 1 := by omega
  have h2 : n - n % 64 = n - 1 - (n - 1) % 64 := by omega
  have h3 : n - 1 - (n - 1) % 64 + ((n - 1) % 64 + 1) = n := by omega
  rw [h1, Finset.sum_range_succ, h2, h3]

/-- After a run's last point: the terms of all the cards of that half, block by block. -/
theorem acc_last (p : Fin 2) (b mm : Fin 128) :
    acc a0 a1 a2 a3 (p.val * 64 + 63) b mm
      = ∑ s : Fin 64, ∑ l : Fin 128, term a0 a1 a2 a3 b mm (Cert.SumBlocks.cidx p s l) := by
  have hp := p.isLt
  unfold acc
  have h1 : (p.val * 64 + 63) % 64 + 1 = 64 := by omega
  have h2 : p.val * 64 + 63 - (p.val * 64 + 63) % 64 = p.val * 64 := by omega
  rw [h1, h2, Finset.sum_range]
  refine Finset.sum_congr rfl fun s _ => ?_
  have hs := s.isLt
  rw [partN_of_lt a0 a1 a2 a3 _ (by omega)]
  unfold part
  refine Finset.sum_congr rfl fun l _ => ?_
  exact congrArg _ (Fin.ext rfl)

/-- THE LAW that joins the two programs: the result is the first half's accumulator at its last point plus the second
    half's at its last point. -/
theorem result_eq_acc (j : Res.Idx) :
    result a0 a1 a2 a3 j = acc a0 a1 a2 a3 63 (j 0) (j 1) + acc a0 a1 a2 a3 127 (j 0) (j 1) := by
  have e0 := acc_last a0 a1 a2 a3 (0 : Fin 2) (j 0) (j 1)
  have e1 := acc_last a0 a1 a2 a3 (1 : Fin 2) (j 0) (j 1)
  unfold result
  rw [Cert.SumBlocks.sum_blocks, Fin.sum_univ_two]
  exact (congrArg₂ (· + ·) e0 e1).symm

end Cert.Spec

end
-- ==== Proof.Accum.lean ====
/-
  The accumulator across the grid is the running sum of the blocks' contributions.

  At grid point t the body is handed the whole pools array, block t of the metapath's rows, block t of the card
  embeddings and the whole projection; so the contribution it adds is the specification's `part t` — the terms of cards
  128 t .. 128 t + 127.  By induction on the point — at a half's first point the accumulator becomes zero plus the
  block's part, at every other point what the point before left plus the block's part — the accumulator after point t
  is `Spec.acc t`, and the block written back at the last point of a half is that accumulator under a leading unit axis.
-/
import proofs.«113139_j78683800863346_2_alg».proof.Proof.Pieces
import proofs.«113139_j78683800863346_2_alg».proof.Proof.Payload
import proofs.«113139_j78683800863346_2_alg».proof.Proof.Blocks
import proofs.«113139_j78683800863346_2_alg».proof.Proof.Running

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The four argument arrays on core `c`, as the specification's arrays of extended reals. -/
abbrev A0 : Cert.Spec.Pools.Idx → EReal := m ((c : Thread nD τ).loc main_arg0)
abbrev A1 : Cert.Spec.Meta.Idx → EReal := m ((c : Thread nD τ).loc main_arg1)
abbrev A2 : Cert.Spec.Cards.Idx → EReal := m ((c : Thread nD τ).loc main_arg2)
abbrev A3 : Cert.Spec.Proj.Idx → EReal := m ((c : Thread nD τ).loc main_arg3)

/-- The four input blocks at point `t`, at their literal shapes. -/
abbrev X0 (t : Fin cfg0.N) : FVec Ideal S128x16384 .bf16 := iblk m c 0 t
abbrev X1 (t : Fin cfg0.N) : FVec Ideal S128x16384 .f32 := iblk m c 1 t
abbrev X2 (t : Fin cfg0.N) : FVec Ideal S128x64 .f32 := iblk m c 2 t
abbrev X3 (t : Fin cfg0.N) : FVec Ideal S64x128 .f32 := iblk m c 3 t

/-- The contribution of the blocks at point `t` is block `t`'s part of the result. -/
theorem blockSum_blocks (t : Fin cfg0.N) (ht : t.val < 128) (b mm : Fin 128) :
    Cert.Spec.blockSum (X0 m c t) (X1 m c t) (X2 m c t) (X3 m c t) b mm = Cert.Spec.part (A0 m c) (A1 m c) (A2 m c) (A3 m c) ⟨t.val, ht⟩ b mm := by
  rw [Cert.Spec.part_eq_blockSum]
  unfold Cert.Spec.blockSum
  refine Finset.sum_congr rfl fun l _ => ?_
  refine congrArg₂ (· * ·) (Finset.sum_congr rfl fun d _ => ?_) (Finset.sum_congr rfl fun e _ => ?_)
  · exact congrArg₂ (· * ·) (Blocks.pools_apply m c t b d) (Blocks.meta_apply m c t l d (Cert.Spec.card ⟨t.val, ht⟩ l) rfl)
  · exact congrArg₂ (· * ·) (Blocks.cards_apply m c t l e (Cert.Spec.card ⟨t.val, ht⟩ l) rfl) (Blocks.proj_apply m c t e mm)

/-- THE INDUCTION: after point `n` the accumulator holds `Spec.acc n`. -/
theorem scratch_eq : ∀ (n : ℕ) (hn : n < cfg0.N) (b mm : Fin 128),
    (outsAt0 m c n hn).2 (ix2 b mm) = Cert.Spec.acc (A0 m c) (A1 m c) (A2 m c) (A3 m c) n b mm := by
  intro n
  induction n using Nat.strong_induction_on with
  | _ n ih =>
  intro hn b mm
  obtain ⟨t, rfl⟩ : ∃ t : Fin cfg0.N, t.val = n := ⟨⟨n, hn⟩, rfl⟩
  have hN : t.val < 128 := lt_of_lt_of_eq hn N_0
  by_cases h0 : t.val % 64 = 0
  · -- a half's first point: zero, then the block's part
    have h1 : ¬t.val % 64 = 63 := by omega
    have hc0 : cond0_0 (grid0.coords t) := (hcond0_0 t).mpr h0
    have hc1 : ¬cond0_1 (grid0.coords t) := fun h => h1 ((hcond0_1 t).mp h)
    have e1 : (outsAt0 m c t.val hn).2 = k0_pay2 (F := Ideal) (X0 m c t) (X1 m c t) (X2 m c t) (X3 m c t) (k0_pay1 (F := Ideal)) := by
      rw [outsAt0_A m c t h0 h1]
      dsimp only
      exact Found.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (X0 m c t) (X1 m c t) (X2 m c t) (X3 m c t)
    rw [e1, Pay.step_apply (X0 m c t) (X1 m c t) (X2 m c t) (X3 m c t) _ b mm, Pay.reset_apply, Cert.Spec.acc_first _ _ _ _ t.val h0,
      Cert.Spec.partN_of_lt _ _ _ _ t.val hN]
    exact congrArg (0 + ·) (blockSum_blocks m c t hN b mm)
  · have hc0 : ¬cond0_0 (grid0.coords t) := fun h => h0 ((hcond0_0 t).mp h)
    have hp : t.val - 1 < cfg0.N := Nat.lt_of_le_of_lt (Nat.sub_le _ _) t.isLt
    have hlt : t.val - 1 < t.val := by omega
    by_cases h1 : t.val % 64 = 63
    · -- a half's last point: what the point before left, plus the block's part
      have hc1 : cond0_1 (grid0.coords t) := (hcond0_1 t).mpr h1
      have e1 : (outsAt0 m c t.val hn).2 = k0_pay2 (F := Ideal) (X0 m c t) (X1 m c t) (X2 m c t) (X3 m c t) (outsAt0 m c (t.val - 1) hp).2 := by
        rw [outsAt0_C m c t h0 h1]
        dsimp only
        exact Found.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (X0 m c t) (X1 m c t) (X2 m c t) (X3 m c t) (outsAt0 m c (t.val - 1) hp).2
      rw [e1, Pay.step_apply (X0 m c t) (X1 m c t) (X2 m c t) (X3 m c t) _ b mm, ih (t.val - 1) hlt hp b mm, Cert.Spec.acc_step _ _ _ _ t.val h0,
        Cert.Spec.partN_of_lt _ _ _ _ t.val hN]
      exact congrArg (_ + ·) (blockSum_blocks m c t hN b mm)
    · -- a middle point: the same
      have hc1 : ¬cond0_1 (grid0.coords t) := fun h => h1 ((hcond0_1 t).mp h)
      have e1 : (outsAt0 m c t.val hn).2 = k0_pay2 (F := Ideal) (X0 m c t) (X1 m c t) (X2 m c t) (X3 m c t) (outsAt0 m c (t.val - 1) hp).2 := by
        rw [outsAt0_B m c t h0 h1]
        dsimp only
        exact Found.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (X0 m c t) (X1 m c t) (X2 m c t) (X3 m c t) (outsAt0 m c (t.val - 1) hp).2
      rw [e1, Pay.step_apply (X0 m c t) (X1 m c t) (X2 m c t) (X3 m c t) _ b mm, ih (t.val - 1) hlt hp b mm, Cert.Spec.acc_step _ _ _ _ t.val h0,
        Cert.Spec.partN_of_lt _ _ _ _ t.val hN]
      exact congrArg (_ + ·) (blockSum_blocks m c t hN b mm)

/-- The block the last point of a half leaves for the write-back: entry [0, b, m] is the accumulator's entry [b, m]. -/
theorem out_eq (t : Fin cfg0.N) (h1 : t.val % 64 = 63) (u : Fin 1) (b mm : Fin 128) :
    (outsAt0 m c t.val t.isLt).1 (ix3 u b mm) = Cert.Spec.acc (A0 m c) (A1 m c) (A2 m c) (A3 m c) t.val b mm := by
  have h0 : ¬t.val % 64 = 0 := by omega
  have hc0 : ¬cond0_0 (grid0.coords t) := fun h => h0 ((hcond0_0 t).mp h)
  have hc1 : cond0_1 (grid0.coords t) := (hcond0_1 t).mpr h1
  have hp : t.val - 1 < cfg0.N := Nat.lt_of_le_of_lt (Nat.sub_le _ _) t.isLt
  have es : (outsAt0 m c t.val t.isLt).2 = k0_pay2 (F := Ideal) (X0 m c t) (X1 m c t) (X2 m c t) (X3 m c t) (outsAt0 m c (t.val - 1) hp).2 := by
    rw [outsAt0_C m c t h0 h1]
    dsimp only
    exact Found.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (X0 m c t) (X1 m c t) (X2 m c t) (X3 m c t) (outsAt0 m c (t.val - 1) hp).2
  have eo : (outsAt0 m c t.val t.isLt).1 = k0_pay3 (F := Ideal) (k0_pay2 (F := Ideal) (X0 m c t) (X1 m c t) (X2 m c t) (X3 m c t) (outsAt0 m c (t.val - 1) hp).2) := by
    rw [outsAt0_C m c t h0 h1]
    dsimp only
    exact Found.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (X0 m c t) (X1 m c t) (X2 m c t) (X3 m c t) (outsAt0 m c (t.val - 1) hp).2
  rw [eo, Pay.flush_apply, ← es]
  exact scratch_eq m c t.val t.isLt b mm

end Cert.KernelIdeal.Acc

end
-- ==== Proof.Final.lean ====
/-
  From the accumulator to the program's result.

  The kernel's output array is [2, 128, 128]: half p of the cards owns slab p.  Slab p is written back once, at the last
  point of half p (point 64 p + 63), from the accumulator as it stands there; the two slabs are disjoint and together
  are the whole array, so after the run entry [p, b, m] is the accumulator after point 64 p + 63 at [b, m].  The host
  then takes slab 0 and slab 1 out as [128, 128] matrices and adds them — which, by the law of the running sums, is the
  sum over all 16384 cards: the specification's result.
-/
import proofs.«113139_j78683800863346_2_alg».proof.Proof.Accum
import Idealize.ShloMosaic.Lib.ValueLayout
import Idealize.ShloMosaic.Lib.StableHlo.Run
import Idealize.ShloMosaic.Lib.Pipeline.FrameSuffix

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Idealize.ShloMosaic.StableHlo Cert.KernelIdeal.Acc
open Idealize.ShloMosaic.Pipeline (Dat)

variable (m : (ℓ : Loc nD τ sig) → Buf (Elt Ideal) ℓ) (ρ : Dev nD → PrngReg) (c : Dev nD)

/-- The accumulator's value depends on the point and on the two coordinates only through their numbers. -/
theorem acc_congr (a0 : Cert.Spec.Pools.Idx → EReal) (a1 : Cert.Spec.Meta.Idx → EReal) (a2 : Cert.Spec.Cards.Idx → EReal)
    (a3 : Cert.Spec.Proj.Idx → EReal) {n n' : ℕ} {b b' mm mm' : Fin 128} (hn : n = n') (hb : b.val = b'.val) (hm : mm.val = mm'.val) :
    Cert.Spec.acc a0 a1 a2 a3 n b mm = Cert.Spec.acc a0 a1 a2 a3 n' b' mm' := by
  subst hn; obtain rfl := Fin.ext hb; obtain rfl := Fin.ext hm; rfl

/-- What the kernel's output array ends holding: entry [p, b, m] is the accumulator after the last point of half p. -/
def outArr : Buf (Elt Ideal) ((c : Thread nD τ).loc main_v1) := fun k =>
  Cert.Spec.acc (A0 m c) (A1 m c) (A2 m c) (A3 m c) ((k 0).val * 64 + 63) ⟨(k 1).val, (k 1).isLt⟩ ⟨(k 2).val, (k 2).isLt⟩

/-- The output window's block index at point t: slab t / 64, at the origin of the other two axes. -/
theorem idx_out : ∀ t : Fin cfg0.N, win0_4.index t (0 : Fin 3) = t.val / 64 ∧ win0_4.index t (1 : Fin 3) = 0 ∧ win0_4.index t (2 : Fin 3) = 0 :=
  (by decide +kernel : ∀ t : Fin grid0.N, win0_4.index t (0 : Fin 3) = t.val / 64 ∧ win0_4.index t (1 : Fin 3) = 0 ∧ win0_4.index t (2 : Fin 3) = 0)

/-- What a writing point writes back is its slab of `outArr`. -/
theorem flushed_eq (t : Fin cfg0.N) (hf : (cfg0.win 4).flush t = true) :
    (dats m 0 c).flushed 4 t = ((cfg0.win 4).blk t).view.read (Elt Ideal) (outArr m c) := by
  have h1 : t.val % 64 = 63 := (flush0_4 t).mp hf
  obtain ⟨i0, i1, i2⟩ := idx_out t
  show (cfg0.win 4).cut (grid0.coords t) ((dats m 0 c).after 4 t) = _
  rw [after0_4]
  funext y
  have hy0 : (y 0).val < 1 := (y 0).isLt
  have hy1 : (y 1).val < 128 := (y 1).isLt
  have hy2 : (y 2).val < 128 := (y 2).isLt
  rw [View.read_apply]
  show (outsAt0 m c t.val t.isLt).1 ((cfg0.win 4).xinj (grid0.coords t) y) = outArr m c (((cfg0.win 4).blk t).view.emb y)
  have ey : (cfg0.win 4).xinj (grid0.coords t) y
      = ix3 (⟨(y 0).val, hy0⟩ : Fin 1) (⟨(y 1).val, hy1⟩ : Fin 128) (⟨(y 2).val, hy2⟩ : Fin 128) :=
    funext fun a => Fin.ext (by match a with | ⟨0, _⟩ => rfl | ⟨1, _⟩ => rfl | ⟨2, _⟩ => rfl)
  rw [ey, out_eq m c t h1]
  unfold outArr
  refine acc_congr _ _ _ _ ?_ ?_ ?_
  · show t.val = (win0_4.index t 0 * 1 + 1 * (y 0).val) * 64 + 63
    rw [i0]; omega
  · show (y 1).val = win0_4.index t 1 * 128 + 1 * (y 1).val
    rw [i1]; omega
  · show (y 2).val = win0_4.index t 2 * 128 + 1 * (y 2).val
    rw [i2]; omega

/-- An index of the output array is in point t's slab iff each coordinate is in the slab's range on its axis. -/
theorem mem_blk (t : Fin cfg0.N) (i : S2x128x128.Idx) :
    i ∈ ((cfg0.win 4).blk t).view.set ↔ ∀ a : Fin 3, win0_4.index t a * S1x128x128.size a ≤ (i a).val
      ∧ (i a).val < win0_4.index t a * S1x128x128.size a + S1x128x128.size a := by
  show i ∈ ((View.whole main_v1).slice (win0_4.rect t)).set ↔ _
  rw [View.set_slice_whole, Rect.mem_set_unit]
  exact Iff.rfl

/-- Every index of the output array is in the slab of a writing point: [p, b, m] in that of point 64 p + 63. -/
theorem cover (i : S2x128x128.Idx) : ∃ t : Fin cfg0.N, (cfg0.win 4).flush t = true ∧ i ∈ ((cfg0.win 4).blk t).view.set := by
  have hi0 : (i 0).val < 2 := (i 0).isLt
  have hi1 : (i 1).val < 128 := (i 1).isLt
  have hi2 : (i 2).val < 128 := (i 2).isLt
  have hN : cfg0.N = 128 := N_0
  obtain ⟨t, htv⟩ : ∃ t : Fin cfg0.N, t.val = (i 0).val * 64 + 63 := ⟨⟨(i 0).val * 64 + 63, by omega⟩, rfl⟩
  obtain ⟨i0, i1, i2⟩ := idx_out t
  refine ⟨t, (flush0_4 t).mpr (by omega), ?_⟩
  rw [mem_blk]
  intro a
  match a with
  | ⟨0, _⟩ =>
    show win0_4.index t 0 * 1 ≤ (i 0).val ∧ (i 0).val < win0_4.index t 0 * 1 + 1
    rw [i0]; omega
  | ⟨1, _⟩ =>
    show win0_4.index t 1 * 128 ≤ (i 1).val ∧ (i 1).val < win0_4.index t 1 * 128 + 128
    rw [i1]; omega
  | ⟨2, _⟩ =>
    show win0_4.index t 2 * 128 ≤ (i 2).val ∧ (i 2).val < win0_4.index t 2 * 128 + 128
    rw [i2]; omega

/-- So the output array ends at `outArr`. -/
theorem final : (dats m 0 c).arrAt 4 cfg0.N = outArr m c :=
  (dats m 0 c).arrAt_eq_of_cover 4 (outArr m c) (flushed_eq m c) (cover)

/-! ## The host lines after the kernel -/

/-- Slab 0 and slab 1 of a [2, 128, 128] array, as matrices, added. -/
def slabSum (o : FVec Ideal S2x128x128 .f32) : FVec Ideal S128x128 .f32 :=
  addf (shapeCast S128x128 (extractStridedSlice S1x128x128 ![0, 0, 0] o slices_S2x128x128_S1x128x128_0_0_0) shapeCasts_S1x128x128_S128x128)
    (shapeCast S128x128 (extractStridedSlice S1x128x128 ![1, 0, 0] o slices_S2x128x128_S1x128x128_1_0_0) shapeCasts_S1x128x128_S128x128)

theorem slabSum_apply (o : FVec Ideal S2x128x128 .f32) (b mm : Fin 128) :
    slabSum o (ix2 b mm) = o (ix3 (0 : Fin 2) b mm) + o (ix3 (1 : Fin 2) b mm) := by
  unfold slabSum
  rw [addf_apply, shapeCast_1ab_ab_apply, shapeCast_1ab_ab_apply,
    extractStridedSlice_apply ![0, 0, 0] o _ (ix3 (0 : Fin 1) b mm) (ix3 (0 : Fin 2) b mm) (fun a => by
      match a with
      | ⟨0, _⟩ => rfl
      | ⟨1, _⟩ => show b.val = 0 + b.val; omega
      | ⟨2, _⟩ => show mm.val = 0 + mm.val; omega),
    extractStridedSlice_apply ![1, 0, 0] o _ (ix3 (0 : Fin 1) b mm) (ix3 (1 : Fin 2) b mm) (fun a => by
      match a with
      | ⟨0, _⟩ => rfl
      | ⟨1, _⟩ => show b.val = 0 + b.val; omega
      | ⟨2, _⟩ => show mm.val = 0 + mm.val; omega)]

/-- The two slabs of `outArr` add up to the specification's result. -/
theorem slabSum_outArr : slabSum (outArr m c) = Cert.Spec.result (A0 m c) (A1 m c) (A2 m c) (A3 m c) := by
  funext j
  obtain ⟨b, mm, rfl⟩ : ∃ (b mm : Fin 128), j = ix2 b mm := ⟨j 0, j 1, eq_ix2 j⟩
  rw [slabSum_apply, Cert.Spec.result_eq_acc]
  rfl

/-- The program's result buffer after the run: the host lines applied to the kernel's output array. -/
theorem tail_eq : Pipeline.afterTail₀ cfgs (dats m) 0 (V0 m) [hostOps1] c main_v6 = Cert.Spec.result (A0 m c) (A1 m c) (A2 m c) (A3 m c) := by
  have e : Pipeline.afterTail₀ cfgs (dats m) 0 (V0 m) [hostOps1] c main_v6
      = slabSum (Pipeline.withArrays spec0 c (V0 m c) (fun w => (dats m 0 c).arrAt w cfg0.N) (Proc.devRef .tc main_v1)) := by
    unfold Pipeline.afterTail₀
    show StableHlo.after hostOps1 _ (Proc.devRef .tc main_v6) = _
    after_results
    rfl
  rw [e, show Pipeline.withArrays spec0 c (V0 m c) (fun w => (dats m 0 c).arrAt w cfg0.N) (Proc.devRef .tc main_v1) = outArr m c from
    (Pipeline.withArrays_arr spec0 launch0.win.arr_inj c _ _ 4).trans (final m c)]
  exact slabSum_outArr m c

/-! ## The kernel's run, read -/

/-- Every weakly fair execution of the idealized kernel terminates with its result buffer at the specification's result
    of the argument arrays, and the argument arrays unchanged. -/
theorem run : θ_run defs (onTc (τ := τ) (main (F := Ideal))) ⟨m, fun _ => 0, ρ⟩ fun r => ∀ c : Dev nD,
      r.2.mem ((c : Thread nD τ).loc main_v6) = Cert.Spec.result (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Final

end
-- ==== Proof.lean ====
/-
  The kernel and its reference compute one function of their four arguments, over the extended reals.

  Arguments: a0 : [128, 16384] (pools by cards), a1 : [16384, 16384] (the metapath), a2 : [16384, 64] (card
  embeddings), a3 : [64, 128] (the projection).  Both programs end with

      result[b, m] = sum over the 16384 cards c of  (sum over d of a0[b, d] * a1[c, d]) * (sum over e of a2[c, e] * a3[e, m]).

  The reference says so directly: three contractions, each an exact sum of products at the ideal values
  (Proof/RefIsSpec.lean over the generated reading of the reference's run).

  The kernel takes the cards 128 at a time on a grid of 2 x 64 points, half p of the cards going to slab p of a
  [2, 128, 128] output.  At each point it forms the block's contribution — three matrix products, whose changes of float
  format are the identity and whose sums are exact at the ideal values (Proof/Payload.lean) — and adds it to an accumulator
  that it resets at the first point of a half and writes out at the last (Proof/Pieces.lean: what each of the body's three
  control cases leaves; Proof/Blocks.lean: which entries of the arguments a point's blocks are).  By induction on the
  point the accumulator is the running sum of the contributions (Proof/Accum.lean over Proof/Running.lean), the two slabs
  end at the two halves' totals, and the host adds the slabs (Proof/Final.lean).

  What joins the two sides is that a sum over 16384 consecutive indices is the sum over the 2 x 64 blocks of the sums over
  each block's 128 indices (Proof/SumBlocks.lean).  That is a re-grouping of a finite sum: it needs the addition to be
  commutative and associative and nothing else, so it holds on the extended reals as they are, infinities included, and the
  finiteness of the inputs is never used.  No operation is rewritten between the kernel and its idealization, so that
  conjunct is the trivial one; the three frame conjuncts are the generated frames, the reference's read off its run.
-/
import proofs.«113139_j78683800863346_2_alg».proof.Defs
import proofs.«113139_j78683800863346_2_alg».proof.Proof.Gen.Kernel
import proofs.«113139_j78683800863346_2_alg».proof.Proof.Gen.Kernel.Frame
import proofs.«113139_j78683800863346_2_alg».proof.Proof.Gen.KernelIdeal
import proofs.«113139_j78683800863346_2_alg».proof.Proof.Gen.KernelIdeal.Frame
import proofs.«113139_j78683800863346_2_alg».proof.Proof.Gen.ReferenceIdeal
import proofs.«113139_j78683800863346_2_alg».proof.Proof.Gen.ReferenceIdeal.Run
import proofs.«113139_j78683800863346_2_alg».proof.Proof.Gen.ReferenceIdeal.Read
import proofs.«113139_j78683800863346_2_alg».proof.Proof.Gen.Pre_finite_inputs
import proofs.«113139_j78683800863346_2_alg».proof.Proof.RefIsSpec
import proofs.«113139_j78683800863346_2_alg».proof.Proof.Final
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the four arguments both programs end at the specification's result of those arguments. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
